-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1700000 : Shape := ⟨1, ![1700000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1700000 32) (main_arg2 : IVec S1700000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1700000 : Shape := ⟨1, ![1700000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1700000x1 : Shape := ⟨2, ![1700000, 1]⟩
abbrev S100000x1 : Shape := ⟨2, ![100000, 1]⟩
abbrev S1700000x128 : Shape := ⟨2, ![1700000, 128]⟩
abbrev S1x128 : Shape := ⟨2, ![1, 128]⟩
abbrev S10000x128 : Shape := ⟨2, ![10000, 128]⟩
abbrev S10000x1 : Shape := ⟨2, ![10000, 1]⟩
abbrev S1x64 : Shape := ⟨2, ![1, 64]⟩
abbrev S100000x64 : Shape := ⟨2, ![100000, 64]⟩
abbrev S10000x64 : Shape := ⟨2, ![10000, 64]⟩

abbrev nBuf : Space → Nat
  | .hbm => 55
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S1700000, .i32⟩
  | .hbm, ⟨2, _⟩ => ⟨S1700000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000x128, .f32⟩
  | .hbm, ⟨34, _⟩ => ⟨S_, .f32⟩
  | .hbm, ⟨35, _⟩ => ⟨S100000x128, .f32⟩
  | .hbm, ⟨36, _⟩ => ⟨S1700000x1, .i32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S_, .f32⟩
  | .hbm, ⟨50, _⟩ => ⟨S100000x128, .f32⟩
  | .hbm, ⟨51, _⟩ => ⟨S1700000x1, .i32⟩
  | .hbm, ⟨52, _⟩ => ⟨S100000x128, .f32⟩
  | .hbm, ⟨53, _⟩ => ⟨S1x64, .f32⟩
  | .hbm, ⟨54, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x1, .f32⟩
  | .local _ .vmem, ⟨5, _⟩ => ⟨S10000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x1, .f32⟩
  | .local _ .vmem, ⟨16, _⟩ => ⟨S10000x1, .f32⟩
  | .local _ .vmem, ⟨17, _⟩ => ⟨S128x64, .f32⟩
  | .local _ .vmem, ⟨18, _⟩ => ⟨S128x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S1700000 : Shape := ⟨1, ![1700000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1700000x1 : Shape := ⟨2, ![1700000, 1]⟩
abbrev S100000x1 : Shape := ⟨2, ![100000, 1]⟩
abbrev S1700000x128 : Shape := ⟨2, ![1700000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1700000, .i32⟩
  | .hbm, ⟨2, _⟩ => ⟨S1700000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000x128, .f32⟩
  | .hbm, ⟨34, _⟩ => ⟨S_, .f32⟩
  | .hbm, ⟨35, _⟩ => ⟨S100000x128, .f32⟩
  | .hbm, ⟨36, _⟩ => ⟨S1700000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call1_cst : Ref sig .tc := ⟨.hbm, 70, rfl⟩
abbrev main_call1_v0 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]

class Facts₀ : Prop where
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.RunValue.lean ====
/-
  The two-launch program, run, with its result kept.

  @main is four stretches: host operations, the first launch, host operations, the second launch. The contents of every
  buffer at the four boundaries are a fold from the launch memory (host operations applied; a launch's arrays at what its
  write-backs leave, the rest untouched), and after the last stretch every unscoped buffer holds the fold's last stage. The
  frame reads only the argument buffers off that last stage; here the result buffer is read off it too: every weakly fair
  execution ends with the result at the fold's last stage and the arguments as launched. For any float values.
-/
import proofs.«148659_j17506286698960_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last stage of the
    fold through @main (`W4`) and the argument arrays as launched. -/
theorem run : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.RunValue

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.SageLayer.lean ====
/-
  One layer of a mean-aggregating graph network, read index by index.

  For node features `x` and summed neighbour features `agg` (both `a × c`), a column `dinv` of reciprocal degrees
  (`a × 1`), weights `ws`, `wn` (`c × b`) and a bias row (`1 × b`), the layer's entry at `(p, q)` is

      (∑ₖ x(p,k) · ws(k,q)  +  ∑ₖ (agg(p,k) · dinv(p,0)) · wn(k,q))  +  bias(0,q).

  A kernel computes it on a block of rows with two products into zero accumulators and vector broadcasts; the host
  computes it on all rows with two general products and dimension broadcasts. Both are read here to the entry above, over
  any extents and on all extended reals: nothing is rearranged, so no finiteness is used. Also here: taking the maximum
  with a fixed array twice is taking it once.
-/
import Idealize.ShloMosaic.Lib.ValueIdx
import Idealize.ShloMosaic.Lib.Pipeline.Value
import Idealize.ShloMosaic.PureOps.Ideal.Laws
import proofs.«148659_j17506286698960_1_alg».proof.Proof.LibPlainDot
import proofs.«148659_j17506286698960_1_alg».proof.Proof.LibKeepdims
import proofs.«148659_j17506286698960_1_alg».proof.Proof.LibRowBroadcasts

noncomputable section

namespace Cert.Sage

open Idealize.ShloMosaic Idealize.ShloMosaic.ValueIdx Cert.Lib Cert.Lib.Rows
open scoped BigOperators

variable {a c b : Nat}

/-! ## The layer's entry -/

/-- The layer at `(p, q)`: the node's own features through `ws`, its neighbours' summed features scaled by the
    reciprocal degree through `wn`, plus the bias. -/
def entry (x agg : FVec Ideal ⟨2, ![a, c]⟩ .f32) (dinv : FVec Ideal ⟨2, ![a, 1]⟩ .f32)
    (ws wn : FVec Ideal ⟨2, ![c, b]⟩ .f32) (bias : FVec Ideal ⟨2, ![1, b]⟩ .f32) (p : Fin a) (q : Fin b) : Ideal .f32 :=
  (∑ k : Fin c, x (ix2 p k) * ws (ix2 k q) + ∑ k : Fin c, (agg (ix2 p k) * dinv (ix2 p (0 : Fin 1))) * wn (ix2 k q))
    + bias (ix2 (0 : Fin 1) q)

variable (wf : DotDims.WF ⟨2, ![a, c]⟩ ⟨2, ![c, b]⟩ ⟨2, ![a, b]⟩ [1] [0] [0] [1] [] [])

/-- The layer as a kernel computes it on its rows: two products into zero accumulators, the column and the bias row
    broadcast as vectors. -/
def onBlock (hcol : (⟨2, ![a, 1]⟩ : Shape).Broadcasts ⟨2, ![a, c]⟩) (hrow : (⟨2, ![1, b]⟩ : Shape).Broadcasts ⟨2, ![a, b]⟩)
    (x agg : FVec Ideal ⟨2, ![a, c]⟩ .f32) (dinv : FVec Ideal ⟨2, ![a, 1]⟩ .f32)
    (ws wn : FVec Ideal ⟨2, ![c, b]⟩ .f32) (bias : FVec Ideal ⟨2, ![1, b]⟩ .f32) : FVec Ideal ⟨2, ![a, b]⟩ .f32 :=
  addf (addf (matmul (PlainDot.dims wf) none x ws (constant (F := Ideal) ⟨2, ![a, b]⟩ .f32 0x00000000#32))
      (matmul (PlainDot.dims wf) none (mulf agg (broadcastTo ⟨2, ![a, c]⟩ dinv hcol)) wn
        (constant (F := Ideal) ⟨2, ![a, b]⟩ .f32 0x00000000#32)))
    (broadcastTo ⟨2, ![a, b]⟩ bias hrow)

/-- The kernel's form at `(p, q)` is the layer's entry. -/
theorem onBlock_apply (hcol : (⟨2, ![a, 1]⟩ : Shape).Broadcasts ⟨2, ![a, c]⟩)
    (hrow : (⟨2, ![1, b]⟩ : Shape).Broadcasts ⟨2, ![a, b]⟩)
    (x agg : FVec Ideal ⟨2, ![a, c]⟩ .f32) (dinv : FVec Ideal ⟨2, ![a, 1]⟩ .f32)
    (ws wn : FVec Ideal ⟨2, ![c, b]⟩ .f32) (bias : FVec Ideal ⟨2, ![1, b]⟩ .f32) (p : Fin a) (q : Fin b) :
    onBlock wf hcol hrow x agg dinv ws wn bias (ix2 p q) = entry x agg dinv ws wn bias p q := by
  unfold onBlock entry
  rw [addf_apply, addf_apply, PlainDot.matmul_zero_apply, PlainDot.matmul_zero_apply, bcastRow_apply]
  simp only [mulf_apply, Keepdims.bcastCol_apply]

/-- The layer as the host computes it on all rows: two general products, the column and the bias row broadcast in
    dimensions. -/
def onHost (hcol : (⟨2, ![a, 1]⟩ : Shape).BroadcastsInDim ⟨2, ![a, c]⟩ ![0, 1])
    (hrow : (⟨2, ![1, b]⟩ : Shape).BroadcastsInDim ⟨2, ![a, b]⟩ ![0, 1])
    (x agg : FVec Ideal ⟨2, ![a, c]⟩ .f32) (dinv : FVec Ideal ⟨2, ![a, 1]⟩ .f32)
    (ws wn : FVec Ideal ⟨2, ![c, b]⟩ .f32) (bias : FVec Ideal ⟨2, ![1, b]⟩ .f32) : FVec Ideal ⟨2, ![a, b]⟩ .f32 :=
  addf (addf (Host.dotGeneral (PlainDot.dims wf) none x ws)
      (Host.dotGeneral (PlainDot.dims wf) none (mulf agg (broadcastInDim ⟨2, ![a, c]⟩ ![0, 1] hcol dinv)) wn))
    (broadcastInDim ⟨2, ![a, b]⟩ ![0, 1] hrow bias)

/-- The host's form at `(p, q)` is the layer's entry. -/
theorem onHost_apply (hcol : (⟨2, ![a, 1]⟩ : Shape).BroadcastsInDim ⟨2, ![a, c]⟩ ![0, 1])
    (hrow : (⟨2, ![1, b]⟩ : Shape).BroadcastsInDim ⟨2, ![a, b]⟩ ![0, 1])
    (x agg : FVec Ideal ⟨2, ![a, c]⟩ .f32) (dinv : FVec Ideal ⟨2, ![a, 1]⟩ .f32)
    (ws wn : FVec Ideal ⟨2, ![c, b]⟩ .f32) (bias : FVec Ideal ⟨2, ![1, b]⟩ .f32) (p : Fin a) (q : Fin b) :
    onHost wf hcol hrow x agg dinv ws wn bias (ix2 p q) = entry x agg dinv ws wn bias p q := by
  unfold onHost entry
  rw [addf_apply, addf_apply, PlainDot.dotGeneral_apply, PlainDot.dotGeneral_apply, dimRow_apply]
  congr 2
  exact Finset.sum_congr rfl fun k _ => by rw [mulf_apply, dimCol_apply]

/-! ## The maximum with a fixed array, twice -/

/-- `max (max y z) z = max y z`, entry by entry, on all extended reals. -/
theorem maximumf_idem {s : Shape} (y z : FVec Ideal s .f32) : maximumf (maximumf y z) z = maximumf y z := by
  funext i
  rw [maximumf_apply, maximumf_apply, max_assoc, max_self]

end Cert.Sage

end
-- ==== Proof.Layer1.lean ====
/-
  What the first launch leaves in its output array.

  The launch walks ten blocks of 10000 rows. At block `t` the body reads rows `10000·t … 10000·t + 9999` of the node
  features, of the summed neighbour features and of the reciprocal-degree column, the two weight matrices and the bias row
  whole, and writes the layer's rows followed by a maximum with zero. An entry of the layer depends only on its own row of
  the row-blocked operands, so what block `t` writes is rows `10000·t …` of ONE function of the whole arrays — the
  layer as the host would compute it on all 100000 rows, then the maximum with the zero array — and the ten blocks cover
  every row (row `r` lies in block `r / 10000`). Hence the output array ends holding that function of the arrays the
  launch was entered with.
-/
import proofs.«148659_j17506286698960_1_alg».proof.Proof.Gen.KernelIdeal.Frame
import proofs.«148659_j17506286698960_1_alg».proof.Proof.SageLayer
import Idealize.ShloMosaic.Lib.Pipeline.Value
import Idealize.ShloMosaic.Lib.ValueIdx

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat)

theorem zero_off : (![0, 0] : Fin 2 → Nat) = fun _ => 0 := funext fun a => by fin_cases a <;> rfl

/-- The zero array the maximum is taken with, as the host spells it. -/
abbrev zeros : FVec Ideal S100000x128 .f32 :=
  broadcastInDim S100000x128 ![] bcast_S_S100000x128 (constant (F := Ideal) S_ .f32 0x00000000#32)

theorem zeros_apply (i : S100000x128.Idx) : zeros i = Ideal.ofBits .f32 0x00000000#32 :=
  broadcastInDim_apply _ bcast_S_S100000x128 (constant (F := Ideal) S_ .f32 0x00000000#32) i ix0 (fun a => a.elim0)

variable (wf : DotDims.WF S100000x128 S128x128 S100000x128 [1] [0] [0] [1] [] [])
  (hcol : S100000x1.BroadcastsInDim S100000x128 ![0, 1]) (hrow : S1x128.BroadcastsInDim S100000x128 ![0, 1])

/-- The first layer on all rows: the layer, then the maximum with zero. -/
def whole (X A : FVec Ideal S100000x128 .f32) (D : FVec Ideal S100000x1 .f32) (WS WN : FVec Ideal S128x128 .f32)
    (B : FVec Ideal S1x128 .f32) : FVec Ideal S100000x128 .f32 :=
  maximumf (Sage.onHost wf hcol hrow X A D WS WN B) zeros

/-- The body's stored value is the layer on the block's rows, then the maximum with zero (the body's casts are between
    equal shapes). -/
theorem pay_eq (agg : Vec Ideal S10000x128 .f32) (dinv : Vec Ideal S10000x1 .f32) (x : Vec Ideal S10000x128 .f32)
    (ws wn : Vec Ideal S128x128 .f32) (bias : Vec Ideal S1x128 .f32) :
    k0_pay1 (F := Ideal) agg dinv x ws wn bias
      = maximumf (Sage.onBlock dot_S10000x128_S128x128_S10000x128_1_0_0_1_n_n_wf broadcasts_S10000x1_S10000x128
            broadcasts_S1x128_S10000x128 x agg dinv ws wn bias)
          (broadcast S10000x128 (Scalar.ofBits (F := Ideal) .f32 0x00000000#32)) := by
  unfold k0_pay1 Sage.onBlock
  simp only [shapeCast_self]
  rfl

/-- Row `r` of a block against row `p` of the whole arrays: when the block's row-blocked operands hold, on row `r`,
    what the arrays hold on row `p`, and the other operands are the arrays, the body's value at `(r, q)` is the first
    layer at `(p, q)`. -/
theorem block_entry (x agg : Vec Ideal S10000x128 .f32) (dinv : Vec Ideal S10000x1 .f32)
    (ws wn : Vec Ideal S128x128 .f32) (bias : Vec Ideal S1x128 .f32)
    (X A : FVec Ideal S100000x128 .f32) (D : FVec Ideal S100000x1 .f32) (WS WN : FVec Ideal S128x128 .f32)
    (B : FVec Ideal S1x128 .f32) (r : Fin 10000) (q : Fin 128) (p : Fin 100000)
    (hx : ∀ k : Fin 128, x (ix2 r k) = X (ix2 p k)) (ha : ∀ k : Fin 128, agg (ix2 r k) = A (ix2 p k))
    (hd : dinv (ix2 r (0 : Fin 1)) = D (ix2 p (0 : Fin 1))) (hws : ws = WS) (hwn : wn = WN) (hb : bias = B) :
    k0_pay1 (F := Ideal) agg dinv x ws wn bias (ix2 r q) = whole wf hcol hrow X A D WS WN B (ix2 p q) := by
  subst hws hwn hb
  rw [pay_eq]
  unfold whole
  rw [maximumf_apply, maximumf_apply, Sage.onBlock_apply, Sage.onHost_apply, zeros_apply]
  unfold Sage.entry
  simp only [hx, ha, hd]
  rfl

/-- The printed block index maps, decided over the ten points: the row-blocked windows are at block row `t`, the
    others at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- What point `t` writes back is block `t` of the first layer of the arrays as the launch finds them. -/
theorem flushed_eq (c : Dev nD) (t : Fin cfg0.N) :
    (dat0 V c).flushed 6 t = ((cfg0.win 6).blk t).view.read (Elt Ideal)
      (whole wf hcol hrow (V c main_arg0) (V c main_v18) (V c main_v8) (V c main_arg3) (V c main_arg4) (V c main_v19)) := by
  show (cfg0.win 6).cut (grid0.coords t) ((dat0 V c).after 6 t) = _
  rw [after0_6]
  unfold out0_6
  rw [View.canon_unit_zero zero_off]
  simp only [View.ld_unit_zero (S := S10000x128) zero_off, View.ld_unit_zero (S := S10000x1) zero_off,
    View.ld_unit_zero (S := S128x128) zero_off, View.ld_unit_zero (S := S1x128) zero_off]
  obtain ⟨e00, e01, e10, e11, e20, e21, e30, e31, e40, e41, e50, e51, e60, e61⟩ := idx_facts t
  funext j
  obtain ⟨r, q, rfl⟩ : ∃ (r : Fin 10000) (q : Fin 128), j = ix2 r q := ⟨j 0, j 1, eq_ix2 j⟩
  have ht : t.val < 10 := t.isLt
  have hr : r.val < 10000 := r.isLt
  have hp : t.val * 10000 + r.val < 100000 := by omega
  have hemb : ((cfg0.win 6).blk t).view.emb (ix2 r q) = ix2 (⟨t.val * 10000 + r.val, hp⟩ : Fin 100000) q := by
    funext a; apply Fin.ext
    match a with
    | ⟨0, _⟩ => show win0_6.index t (0 : Fin 2) * 10000 + 1 * r.val = t.val * 10000 + r.val; omega
    | ⟨1, _⟩ => show win0_6.index t (1 : Fin 2) * 128 + 1 * q.val = q.val; omega
  show k0_pay1 (F := Ideal) (iblk0 V c 1 t) (iblk0 V c 2 t) (iblk0 V c 0 t) (iblk0 V c 3 t) (iblk0 V c 4 t) (iblk0 V c 5 t) (ix2 r q)
      = whole wf hcol hrow (V c main_arg0) (V c main_v18) (V c main_v8) (V c main_arg3) (V c main_arg4) (V c main_v19)
          (((cfg0.win 6).blk t).view.emb (ix2 r q))
  rw [hemb]
  refine block_entry wf hcol hrow (iblk0 V c 0 t) (iblk0 V c 1 t) (iblk0 V c 2 t) (iblk0 V c 3 t) (iblk0 V c 4 t) (iblk0 V c 5 t)
    (V c main_arg0) (V c main_v18) (V c main_v8) (V c main_arg3) (V c main_arg4) (V c main_v19) r q ⟨_, hp⟩ ?_ ?_ ?_ ?_ ?_ ?_
  · intro k
    show V c main_arg0 (((cfg0.win 0).blk t).view.emb (ix2 r k)) = _
    refine congrArg (V c main_arg0) (funext fun a => Fin.ext ?_)
    match a with
    | ⟨0, _⟩ => show win0_0.index t (0 : Fin 2) * 10000 + 1 * r.val = t.val * 10000 + r.val; omega
    | ⟨1, _⟩ => show win0_0.index t (1 : Fin 2) * 128 + 1 * k.val = k.val; omega
  · intro k
    show V c main_v18 (((cfg0.win 1).blk t).view.emb (ix2 r k)) = _
    refine congrArg (V c main_v18) (funext fun a => Fin.ext ?_)
    match a with
    | ⟨0, _⟩ => show win0_1.index t (0 : Fin 2) * 10000 + 1 * r.val = t.val * 10000 + r.val; omega
    | ⟨1, _⟩ => show win0_1.index t (1 : Fin 2) * 128 + 1 * k.val = k.val; omega
  · show V c main_v8 (((cfg0.win 2).blk t).view.emb (ix2 r (0 : Fin 1))) = _
    refine congrArg (V c main_v8) (funext fun a => Fin.ext ?_)
    match a with
    | ⟨0, _⟩ => show win0_2.index t (0 : Fin 2) * 10000 + 1 * r.val = t.val * 10000 + r.val; omega
    | ⟨1, _⟩ => show win0_2.index t (1 : Fin 2) * 1 + 1 * 0 = 0; omega
  · funext y
    show V c main_arg3 (((cfg0.win 3).blk t).view.emb y) = _
    refine congrArg (V c main_arg3) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V c main_arg4 (((cfg0.win 4).blk t).view.emb y) = _
    refine congrArg (V c main_arg4) (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  · funext y
    show V c main_v19 (((cfg0.win 5).blk t).view.emb y) = _
    refine congrArg (V c main_v19) (funext fun a => Fin.ext ?_)
    match a with
    | ⟨0, _⟩ => show win0_5.index t (0 : Fin 2) * 1 + 1 * (y 0).val = (y 0).val; omega
    | ⟨1, _⟩ => show win0_5.index t (1 : Fin 2) * 128 + 1 * (y 1).val = (y 1).val; omega

/-- An index of the output array is in point `t`'s block iff each coordinate is in the block's range on its axis. -/
theorem mem_blk (t : Fin cfg0.N) (i : S100000x128.Idx) :
    i ∈ ((cfg0.win 6).blk t).view.set ↔ ∀ a : Fin 2, win0_6.index t a * S10000x128.size a ≤ (i a).val
      ∧ (i a).val < win0_6.index t a * S10000x128.size a + S10000x128.size a := by
  show i ∈ ((View.whole main_v20).slice (win0_6.rect t)).set ↔ _
  rw [View.set_slice_whole, Rect.mem_set_unit]
  exact Iff.rfl

/-- Every row is in some point's block: row `r` in block `r / 10000`. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hlt : (i 0).val / 10000 < 10 := by omega
  obtain ⟨e00, e01, e10, e11, e20, e21, e30, e31, e40, e41, e50, e51, e60, e61⟩ :=
    idx_facts (⟨(i 0).val / 10000, hlt⟩ : Fin cfg0.N)
  refine ⟨⟨(i 0).val / 10000, hlt⟩, flush0_6 _, ?_⟩
  rw [mem_blk]
  intro a
  match a with
  | ⟨0, _⟩ =>
    show win0_6.index ⟨(i 0).val / 10000, hlt⟩ (0 : Fin 2) * 10000 ≤ (i 0).val
      ∧ (i 0).val < win0_6.index ⟨(i 0).val / 10000, hlt⟩ (0 : Fin 2) * 10000 + 10000
    rw [e60]
    show (i 0).val / 10000 * 10000 ≤ (i 0).val ∧ (i 0).val < (i 0).val / 10000 * 10000 + 10000
    omega
  | ⟨1, _⟩ =>
    show win0_6.index ⟨(i 0).val / 10000, hlt⟩ (1 : Fin 2) * 128 ≤ (i 1).val
      ∧ (i 1).val < win0_6.index ⟨(i 0).val / 10000, hlt⟩ (1 : Fin 2) * 128 + 128
    rw [e61]
    omega

/-- THE OUTPUT ARRAY after the launch: the first layer of the arrays the launch was entered with. -/
theorem final (c : Dev nD) :
    (dat0 V c).arrAt 6 cfg0.N
      = whole wf hcol hrow (V c main_arg0) (V c main_v18) (V c main_v8) (V c main_arg3) (V c main_arg4) (V c main_v19) :=
  (dat0 V c).arrAt_eq_of_cover 6 _ (fun t _ => flushed_eq wf hcol hrow V c t) cover

end Cert.KernelIdeal.Layer1

end
-- ==== Proof.Layer3.lean ====
/-
  What the second launch leaves in its output array.

  The launch walks ten blocks of 10000 rows. At block `t` the body reads rows `10000·t … 10000·t + 9999` of the hidden
  features, of their summed neighbour features and of the reciprocal-degree column, the two 128 × 64 weight matrices and
  the bias row whole, and writes the layer's rows (no maximum follows). An entry of the layer depends only on its own row
  of the row-blocked operands, so what block `t` writes is rows `10000·t …` of ONE function of the whole arrays — the
  layer as the host would compute it on all 100000 rows — and the ten blocks cover every row (row `r` lies in block
  `r / 10000`). Hence the output array ends holding that function of the arrays the launch was entered with.
-/
import proofs.«148659_j17506286698960_1_alg».proof.Proof.Gen.KernelIdeal.Frame
import proofs.«148659_j17506286698960_1_alg».proof.Proof.SageLayer
import Idealize.ShloMosaic.Lib.Pipeline.Value
import Idealize.ShloMosaic.Lib.ValueIdx

set_option maxRecDepth 16384

noncomputable section

namespace Cert.KernelIdeal.Layer3

open Cert.KernelIdeal Cert.KernelIdeal.Gen
open Idealize.ShloMosaic Idealize.ShloMosaic.TcCoe Idealize.ShloMosaic.ValueIdx Idealize.SL.Sem
open Idealize.ShloMosaic.Pipeline (Dat)

theorem zero_off : (![0, 0] : Fin 2 → Nat) = fun _ => 0 := funext fun a => by fin_cases a <;> rfl

variable (wf : DotDims.WF S100000x128 S128x64 S100000x64 [1] [0] [0] [1] [] [])
  (hcol : S100000x1.BroadcastsInDim S100000x128 ![0, 1]) (hrow : S1x64.BroadcastsInDim S100000x64 ![0, 1])

/-- The output layer on all rows. -/
def whole (X A : FVec Ideal S100000x128 .f32) (D : FVec Ideal S100000x1 .f32) (WS WN : FVec Ideal S128x64 .f32)
    (B : FVec Ideal S1x64 .f32) : FVec Ideal S100000x64 .f32 :=
  Sage.onHost wf hcol hrow X A D WS WN B

/-- The body's stored value is the layer on the block's rows (the body's casts are between equal shapes). -/
theorem pay_eq (agg : Vec Ideal S10000x128 .f32) (dinv : Vec Ideal S10000x1 .f32) (x : Vec Ideal S10000x128 .f32)
    (ws wn : Vec Ideal S128x64 .f32) (bias : Vec Ideal S1x64 .f32) :
    k1_pay1 (F := Ideal) agg dinv x ws wn bias
      = Sage.onBlock dot_S10000x128_S128x64_S10000x64_1_0_0_1_n_n_wf broadcasts_S10000x1_S10000x128
          broadcasts_S1x64_S10000x64 x agg dinv ws wn bias := by
  unfold k1_pay1 Sage.onBlock
  simp only [shapeCast_self]
  rfl

/-- Row `r` of a block against row `p` of the whole arrays: when the block's row-blocked operands hold, on row `r`,
    what the arrays hold on row `p`, and the other operands are the arrays, the body's value at `(r, q)` is the output
    layer at `(p, q)`. -/
theorem block_entry (x agg : Vec Ideal S10000x128 .f32) (dinv : Vec Ideal S10000x1 .f32)
    (ws wn : Vec Ideal S128x64 .f32) (bias : Vec Ideal S1x64 .f32)
    (X A : FVec Ideal S100000x128 .f32) (D : FVec Ideal S100000x1 .f32) (WS WN : FVec Ideal S128x64 .f32)
    (B : FVec Ideal S1x64 .f32) (r : Fin 10000) (q : Fin 64) (p : Fin 100000)
    (hx : ∀ k : Fin 128, x (ix2 r k) = X (ix2 p k)) (ha : ∀ k : Fin 128, agg (ix2 r k) = A (ix2 p k))
    (hd : dinv (ix2 r (0 : Fin 1)) = D (ix2 p (0 : Fin 1))) (hws : ws = WS) (hwn : wn = WN) (hb : bias = B) :
    k1_pay1 (F := Ideal) agg dinv x ws wn bias (ix2 r q) = whole wf hcol hrow X A D WS WN B (ix2 p q) := by
  subst hws hwn hb
  rw [pay_eq]
  unfold whole
  rw [Sage.onBlock_apply, Sage.onHost_apply]
  unfold Sage.entry
  simp only [hx, ha, hd]

/-- The printed block index maps, decided over the ten points: the row-blocked windows are at block row `t`, the
    others at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- What point `t` writes back is block `t` of the output layer of the arrays as the launch finds them. -/
theorem flushed_eq (c : Dev nD) (t : Fin cfg1.N) :
    (dat1 V c).flushed 6 t = ((cfg1.win 6).blk t).view.read (Elt Ideal)
      (whole wf hcol hrow (V c main_v20) (V c main_v30) (V c main_v8) (V c main_arg9) (V c main_arg10) (V c main_v31)) := by
  show (cfg1.win 6).cut (grid1.coords t) ((dat1 V c).after 6 t) = _
  rw [after1_6]
  unfold out1_6
  rw [View.canon_unit_zero zero_off]
  simp only [View.ld_unit_zero (S := S10000x128) zero_off, View.ld_unit_zero (S := S10000x1) zero_off,
    View.ld_unit_zero (S := S128x64) zero_off, View.ld_unit_zero (S := S1x64) zero_off]
  obtain ⟨e00, e01, e10, e11, e20, e21, e30, e31, e40, e41, e50, e51, e60, e61⟩ := idx_facts t
  funext j
  obtain ⟨r, q, rfl⟩ : ∃ (r : Fin 10000) (q : Fin 64), j = ix2 r q := ⟨j 0, j 1, eq_ix2 j⟩
  have ht : t.val < 10 := t.isLt
  have hr : r.val < 10000 := r.isLt
  have hp : t.val * 10000 + r.val < 100000 := by omega
  have hemb : ((cfg1.win 6).blk t).view.emb (ix2 r q) = ix2 (⟨t.val * 10000 + r.val, hp⟩ : Fin 100000) q := by
    funext a; apply Fin.ext
    match a with
    | ⟨0, _⟩ => show win1_6.index t (0 : Fin 2) * 10000 + 1 * r.val = t.val * 10000 + r.val; omega
    | ⟨1, _⟩ => show win1_6.index t (1 : Fin 2) * 64 + 1 * q.val = q.val; omega
  show k1_pay1 (F := Ideal) (iblk1 V c 1 t) (iblk1 V c 2 t) (iblk1 V c 0 t) (iblk1 V c 3 t) (iblk1 V c 4 t) (iblk1 V c 5 t) (ix2 r q)
      = whole wf hcol hrow (V c main_v20) (V c main_v30) (V c main_v8) (V c main_arg9) (V c main_arg10) (V c main_v31)
          (((cfg1.win 6).blk t).view.emb (ix2 r q))
  rw [hemb]
  refine block_entry wf hcol hrow (iblk1 V c 0 t) (iblk1 V c 1 t) (iblk1 V c 2 t) (iblk1 V c 3 t) (iblk1 V c 4 t) (iblk1 V c 5 t)
    (V c main_v20) (V c main_v30) (V c main_v8) (V c main_arg9) (V c main_arg10) (V c main_v31) r q ⟨_, hp⟩ ?_ ?_ ?_ ?_ ?_ ?_
  · intro k
    show V c main_v20 (((cfg1.win 0).blk t).view.emb (ix2 r k)) = _
    refine congrArg (V c main_v20) (funext fun a => Fin.ext ?_)
    match a with
    | ⟨0, _⟩ => show win1_0.index t (0 : Fin 2) * 10000 + 1 * r.val = t.val * 10000 + r.val; omega
    | ⟨1, _⟩ => show win1_0.index t (1 : Fin 2) * 128 + 1 * k.val = k.val; omega
  · intro k
    show V c main_v30 (((cfg1.win 1).blk t).view.emb (ix2 r k)) = _
    refine congrArg (V c main_v30) (funext fun a => Fin.ext ?_)
    match a with
    | ⟨0, _⟩ => show win1_1.index t (0 : Fin 2) * 10000 + 1 * r.val = t.val * 10000 + r.val; omega
    | ⟨1, _⟩ => show win1_1.index t (1 : Fin 2) * 128 + 1 * k.val = k.val; omega
  · show V c main_v8 (((cfg1.win 2).blk t).view.emb (ix2 r (0 : Fin 1))) = _
    refine congrArg (V c main_v8) (funext fun a => Fin.ext ?_)
    match a with
    | ⟨0, _⟩ => show win1_2.index t (0 : Fin 2) * 10000 + 1 * r.val = t.val * 10000 + r.val; omega
    | ⟨1, _⟩ => show win1_2.index t (1 : Fin 2) * 1 + 1 * 0 = 0; omega
  · funext y
    show V c main_arg9 (((cfg1.win 3).blk t).view.emb y) = _
    refine congrArg (V c main_arg9) (funext fun a => Fin.ext ?_)
    match a with
    | ⟨0, _⟩ => show win1_3.index t (0 : Fin 2) * 128 + 1 * (y 0).val = (y 0).val; omega
    | ⟨1, _⟩ => show win1_3.index t (1 : Fin 2) * 64 + 1 * (y 1).val = (y 1).val; omega
  · funext y
    show V c main_arg10 (((cfg1.win 4).blk t).view.emb y) = _
    refine congrArg (V c main_arg10) (funext fun a => Fin.ext ?_)
    match a with
    | ⟨0, _⟩ => show win1_4.index t (0 : Fin 2) * 128 + 1 * (y 0).val = (y 0).val; omega
    | ⟨1, _⟩ => show win1_4.index t (1 : Fin 2) * 64 + 1 * (y 1).val = (y 1).val; omega
  · funext y
    show V c main_v31 (((cfg1.win 5).blk t).view.emb y) = _
    refine congrArg (V c main_v31) (funext fun a => Fin.ext ?_)
    match a with
    | ⟨0, _⟩ => show win1_5.index t (0 : Fin 2) * 1 + 1 * (y 0).val = (y 0).val; omega
    | ⟨1, _⟩ => show win1_5.index t (1 : Fin 2) * 64 + 1 * (y 1).val = (y 1).val; omega

/-- An index of the output array is in point `t`'s block iff each coordinate is in the block's range on its axis. -/
theorem mem_blk (t : Fin cfg1.N) (i : S100000x64.Idx) :
    i ∈ ((cfg1.win 6).blk t).view.set ↔ ∀ a : Fin 2, win1_6.index t a * S10000x64.size a ≤ (i a).val
      ∧ (i a).val < win1_6.index t a * S10000x64.size a + S10000x64.size a := by
  show i ∈ ((View.whole main_v32).slice (win1_6.rect t)).set ↔ _
  rw [View.set_slice_whole, Rect.mem_set_unit]
  exact Iff.rfl

/-- Every row is in some point's block: row `r` in block `r / 10000`. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hlt : (i 0).val / 10000 < 10 := by omega
  obtain ⟨e00, e01, e10, e11, e20, e21, e30, e31, e40, e41, e50, e51, e60, e61⟩ :=
    idx_facts (⟨(i 0).val / 10000, hlt⟩ : Fin cfg1.N)
  refine ⟨⟨(i 0).val / 10000, hlt⟩, flush1_6 _, ?_⟩
  rw [mem_blk]
  intro a
  match a with
  | ⟨0, _⟩ =>
    show win1_6.index ⟨(i 0).val / 10000, hlt⟩ (0 : Fin 2) * 10000 ≤ (i 0).val
      ∧ (i 0).val < win1_6.index ⟨(i 0).val / 10000, hlt⟩ (0 : Fin 2) * 10000 + 10000
    rw [e60]
    show (i 0).val / 10000 * 10000 ≤ (i 0).val ∧ (i 0).val < (i 0).val / 10000 * 10000 + 10000
    omega
  | ⟨1, _⟩ =>
    show win1_6.index ⟨(i 0).val / 10000, hlt⟩ (1 : Fin 2) * 64 ≤ (i 1).val
      ∧ (i 1).val < win1_6.index ⟨(i 0).val / 10000, hlt⟩ (1 : Fin 2) * 64 + 64
    rw [e61]
    omega

/-- THE OUTPUT ARRAY after the launch: the output layer of the arrays the launch was entered with. -/
theorem final (c : Dev nD) :
    (dat1 V c).arrAt 6 cfg1.N
      = whole wf hcol hrow (V c main_v20) (V c main_v30) (V c main_v8) (V c main_arg9) (V c main_arg10) (V c main_v31) :=
  (dat1 V c).arrAt_eq_of_cover 6 _ (fun t _ => flushed_eq wf hcol hrow V c t) cover

end Cert.KernelIdeal.Layer3

end
-- ==== Proof.Network.lean ====
/-
  The network as a function of the argument arrays, in its two spellings.

  From the destination list the reciprocal degrees: count, per node, the edges that end there (a sum of ones scattered
  by destination), take the maximum with one, and invert. From features `h` the aggregate: gather the source node's row
  for every edge (negative indices wrapped by the node count first), and sum the rows by destination. The hidden features
  are the first layer of `x`; the output is the second layer of the hidden features, aggregated again over the same
  edges.

  The two programs spell this differently in two places only. One takes the maximum of the first layer with zero once
  and casts each bias vector to a row; the other takes that maximum twice and broadcasts each bias vector to a row.
  A maximum with the same array twice is that maximum once, and the cast row is the broadcast row, so the two
  spellings are one function — on all extended reals, nothing being rearranged.
-/
import proofs.«148659_j17506286698960_1_alg».proof.Proof.Layer1
import proofs.«148659_j17506286698960_1_alg».proof.Proof.Layer3

noncomputable section

namespace Cert.KernelIdeal.Net

open Cert.KernelIdeal Cert.KernelIdeal.Gen
open Idealize.ShloMosaic Idealize.ShloMosaic.TcCoe

/-- The reciprocal of each node's in-degree (at least one), as a column. -/
def degInv (dst : IVec S1700000 32) : FVec Ideal S100000x1 .f32 :=
  broadcastInDim S100000x1 ![0] bcast_S100000_S100000x1_0
    (Host.divf (broadcastInDim S100000 ![] bcast_S_S100000 (constant (F := Ideal) S_ .f32 0x3F800000#32))
      (maximumf
        (Host.scatterAdd scatter_S100000_S1700000x1_S1700000_n_0_0_1
          (broadcastInDim S100000 ![] bcast_S_S100000 (constant (F := Ideal) S_ .f32 0x00000000#32))
          (broadcastInDim S1700000x1 ![0] bcast_S1700000_S1700000x1_0 dst)
          (broadcastInDim S1700000 ![] bcast_S_S1700000 (constant (F := Ideal) S_ .f32 0x3F800000#32)))
        (broadcastInDim S100000 ![] bcast_S_S100000 (constant (F := Ideal) S_ .f32 0x3F800000#32))))

/-- The features of every edge's source node, summed at the edge's destination node. -/
def aggregate (h : FVec Ideal S100000x128 .f32) (src dst : IVec S1700000 32) : FVec Ideal S100000x128 .f32 :=
  Host.scatterAdd scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 dst)
    (Host.gather gather_S100000x128_S1700000x1_S1700000x128_1_0_n_n_0_1_1128 h
      (broadcastInDim S1700000x1 ![0] bcast_S1700000_S1700000x1_0
        (select (cmpi .slt src (broadcastInDim S1700000 ![] bcast_S_S1700000 (constantI S_ 32 0#32)))
          (addi src (broadcastInDim S1700000 ![] bcast_S_S1700000 (constantI S_ 32 100000#32))) src)))

variable (wf1 : DotDims.WF S100000x128 S128x128 S100000x128 [1] [0] [0] [1] [] [])
  (hcol : S100000x1.BroadcastsInDim S100000x128 ![0, 1]) (hrow1 : S1x128.BroadcastsInDim S100000x128 ![0, 1])
  (wf3 : DotDims.WF S100000x128 S128x64 S100000x64 [1] [0] [0] [1] [] [])
  (hrow3 : S1x64.BroadcastsInDim S100000x64 ![0, 1])

/-! ## With one maximum and cast bias rows -/

/-- The hidden features: the first layer of `x` and its aggregate, the bias cast to a row. -/
def hidden (x : FVec Ideal S100000x128 .f32) (src dst : IVec S1700000 32) (ws1 wn1 : FVec Ideal S128x128 .f32)
    (b1 : FVec Ideal S128 .f32) : FVec Ideal S100000x128 .f32 :=
  Layer1.whole wf1 hcol hrow1 x (aggregate x src dst) (degInv dst) ws1 wn1 (shapeCast S1x128 b1 shapeCasts_S128_S1x128)

/-- The output: the second layer of the hidden features and their aggregate, the bias cast to a row. -/
def output (x : FVec Ideal S100000x128 .f32) (src dst : IVec S1700000 32) (ws1 wn1 : FVec Ideal S128x128 .f32)
    (b1 : FVec Ideal S128 .f32) (ws3 wn3 : FVec Ideal S128x64 .f32) (b3 : FVec Ideal S64 .f32) :
    FVec Ideal S100000x64 .f32 :=
  Layer3.whole wf3 hcol hrow3 (hidden wf1 hcol hrow1 x src dst ws1 wn1 b1)
    (aggregate (hidden wf1 hcol hrow1 x src dst ws1 wn1 b1) src dst) (degInv dst) ws3 wn3
    (shapeCast S1x64 b3 shapeCasts_S64_S1x64)

/-! ## With the maximum twice and broadcast bias rows -/

variable (hb1 : S128.BroadcastsInDim S1x128 ![1]) (hb3 : S64.BroadcastsInDim S1x64 ![1])

/-- The hidden features with the maximum taken twice, the bias broadcast to a row. -/
def hidden' (x : FVec Ideal S100000x128 .f32) (src dst : IVec S1700000 32) (ws1 wn1 : FVec Ideal S128x128 .f32)
    (b1 : FVec Ideal S128 .f32) : FVec Ideal S100000x128 .f32 :=
  maximumf (maximumf (Sage.onHost wf1 hcol hrow1 x (aggregate x src dst) (degInv dst) ws1 wn1
    (broadcastInDim S1x128 ![1] hb1 b1)) Layer1.zeros) Layer1.zeros

/-- The output over those hidden features, the bias broadcast to a row. -/
def output' (x : FVec Ideal S100000x128 .f32) (src dst : IVec S1700000 32) (ws1 wn1 : FVec Ideal S128x128 .f32)
    (b1 : FVec Ideal S128 .f32) (ws3 wn3 : FVec Ideal S128x64 .f32) (b3 : FVec Ideal S64 .f32) :
    FVec Ideal S100000x64 .f32 :=
  Sage.onHost wf3 hcol hrow3 (hidden' wf1 hcol hrow1 hb1 x src dst ws1 wn1 b1)
    (aggregate (hidden' wf1 hcol hrow1 hb1 x src dst ws1 wn1 b1) src dst) (degInv dst) ws3 wn3
    (broadcastInDim S1x64 ![1] hb3 b3)

/-- The two spellings of the hidden features are one function. -/
theorem hidden'_eq (x : FVec Ideal S100000x128 .f32) (src dst : IVec S1700000 32) (ws1 wn1 : FVec Ideal S128x128 .f32)
    (b1 : FVec Ideal S128 .f32) :
    hidden' wf1 hcol hrow1 hb1 x src dst ws1 wn1 b1 = hidden wf1 hcol hrow1 x src dst ws1 wn1 b1 := by
  unfold hidden' hidden Layer1.whole
  rw [Sage.maximumf_idem, ← Cert.Lib.Rows.castRow_eq_dimRow b1 shapeCasts_S128_S1x128 hb1]

/-- The two spellings of the output are one function. -/
theorem output'_eq (x : FVec Ideal S100000x128 .f32) (src dst : IVec S1700000 32) (ws1 wn1 : FVec Ideal S128x128 .f32)
    (b1 : FVec Ideal S128 .f32) (ws3 wn3 : FVec Ideal S128x64 .f32) (b3 : FVec Ideal S64 .f32) :
    output' wf1 hcol hrow1 wf3 hrow3 hb1 hb3 x src dst ws1 wn1 b1 ws3 wn3 b3
      = output wf1 hcol hrow1 wf3 hrow3 x src dst ws1 wn1 b1 ws3 wn3 b3 := by
  unfold output' output Layer3.whole
  rw [hidden'_eq, ← Cert.Lib.Rows.castRow_eq_dimRow b3 shapeCasts_S64_S1x64 hb3]

end Cert.KernelIdeal.Net

end
-- ==== Proof.KernelValue.lean ====
/-
  The kernel program's result as a function of its arguments.

  The run leaves the result buffer at the last stage of the fold through @main. That stage is the second launch's output
  array, which is the output layer of the arrays the second launch was entered with. Those are: the first launch's output
  (untouched by the host operations between the launches), its aggregate over the edges (computed by those host
  operations), the reciprocal-degree column (computed before the first launch and only read since), the output weights
  (arguments, never written) and the output bias cast to a row. The first launch's output is in turn the first layer of
  the arrays it was entered with: the node features, their aggregate, the same column, the first weights and bias row.
  Walking each buffer back through the stages to the launch memory gives the result as the network's function of the
  argument arrays.
-/
import proofs.«148659_j17506286698960_1_alg».proof.Proof.Network
import Idealize.ShloMosaic.Lib.StableHlo.Run

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## Before the first launch: the host operations from the launch memory -/

theorem V1_arg0 (c : Dev nD) : V1 m ρ c main_arg0 = m ((c : Thread nD τ).loc main_arg0) := by
  show StableHlo.after hostOps0 (W0 m ρ c) (Proc.devRef .tc main_arg0) = _
  after_results
theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results
theorem V1_arg4 (c : Dev nD) : V1 m ρ c main_arg4 = m ((c : Thread nD τ).loc main_arg4) := by
  show StableHlo.after hostOps0 (W0 m ρ c) (Proc.devRef .tc main_arg4) = _
  after_results
theorem V1_arg9 (c : Dev nD) : V1 m ρ c main_arg9 = m ((c : Thread nD τ).loc main_arg9) := by
  show StableHlo.after hostOps0 (W0 m ρ c) (Proc.devRef .tc main_arg9) = _
  after_results
theorem V1_arg10 (c : Dev nD) : V1 m ρ c main_arg10 = m ((c : Thread nD τ).loc main_arg10) := by
  show StableHlo.after hostOps0 (W0 m ρ c) (Proc.devRef .tc main_arg10) = _
  after_results
theorem V1_arg11 (c : Dev nD) : V1 m ρ c main_arg11 = m ((c : Thread nD τ).loc main_arg11) := by
  show StableHlo.after hostOps0 (W0 m ρ c) (Proc.devRef .tc main_arg11) = _
  after_results
/-- The reciprocal-degree column. -/
theorem V1_v8 (c : Dev nD) : V1 m ρ c main_v8 = Net.degInv (m ((c : Thread nD τ).loc main_arg2)) := by
  show StableHlo.after hostOps0 (W0 m ρ c) (Proc.devRef .tc main_v8) = _
  after_results
  rfl
set_option maxHeartbeats 4000000 in
/-- The node features' aggregate. -/
theorem V1_v18 (c : Dev nD) : V1 m ρ c main_v18 = Net.aggregate (m ((c : Thread nD τ).loc main_arg0)) (m ((c : Thread nD τ).loc main_arg1)) (m ((c : Thread nD τ).loc main_arg2)) := by
  show StableHlo.after hostOps0 (W0 m ρ c) (Proc.devRef .tc main_v18) = _
  after_results_simp
  rfl
/-- The first bias as a row. -/
theorem V1_v19 (c : Dev nD) : V1 m ρ c main_v19 = shapeCast S1x128 (m ((c : Thread nD τ).loc main_arg5)) shapeCasts_S128_S1x128 := by
  show StableHlo.after hostOps0 (W0 m ρ c) (Proc.devRef .tc main_v19) = _
  after_results
  rfl

variable (wf1 : DotDims.WF S100000x128 S128x128 S100000x128 [1] [0] [0] [1] [] [])
  (hcol : S100000x1.BroadcastsInDim S100000x128 ![0, 1]) (hrow1 : S1x128.BroadcastsInDim S100000x128 ![0, 1])
  (wf3 : DotDims.WF S100000x128 S128x64 S100000x64 [1] [0] [0] [1] [] [])
  (hrow3 : S1x64.BroadcastsInDim S100000x64 ![0, 1])

/-! ## After the first launch -/

/-- The first launch's output array holds the hidden features. -/
theorem W2_v20 (c : Dev nD) : W2 m ρ c (Proc.devRef .tc main_v20)
    = Net.hidden wf1 hcol hrow1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W2_arr m ρ c 6).trans ((Layer1.final wf1 hcol hrow1 (V1 m ρ) c).trans ?_)
  rw [V1_arg0, V1_v18, V1_v8, V1_arg3, V1_arg4, V1_v19]
  rfl

/-- The reciprocal-degree column, an input of the first launch, is as it was entered. -/
theorem W2_v8 (c : Dev nD) : W2 m ρ c (Proc.devRef .tc main_v8) = Net.degInv (m ((c : Thread nD τ).loc main_arg2)) :=
  (W2_arr m ρ c 2).trans (((dat0 (V1 m ρ) c).arrAt_in 2 rfl _).trans ((A_eq0 (V1 m ρ) c 2).trans (V1_v8 m ρ c)))

theorem W2_arg1 (c : Dev nD) : W2 m ρ c (Proc.devRef .tc main_arg1) = m ((c : Thread nD τ).loc main_arg1) :=
  (W2_of_ne m ρ c main_arg1 (by decide)).trans (V1_arg1 m ρ c)
theorem W2_arg2 (c : Dev nD) : W2 m ρ c (Proc.devRef .tc main_arg2) = m ((c : Thread nD τ).loc main_arg2) :=
  (W2_of_ne m ρ c main_arg2 (by decide)).trans (V1_arg2 m ρ c)
theorem W2_arg9 (c : Dev nD) : W2 m ρ c (Proc.devRef .tc main_arg9) = m ((c : Thread nD τ).loc main_arg9) :=
  (W2_of_ne m ρ c main_arg9 (by decide)).trans (V1_arg9 m ρ c)
theorem W2_arg10 (c : Dev nD) : W2 m ρ c (Proc.devRef .tc main_arg10) = m ((c : Thread nD τ).loc main_arg10) :=
  (W2_of_ne m ρ c main_arg10 (by decide)).trans (V1_arg10 m ρ c)
theorem W2_arg11 (c : Dev nD) : W2 m ρ c (Proc.devRef .tc main_arg11) = m ((c : Thread nD τ).loc main_arg11) :=
  (W2_of_ne m ρ c main_arg11 (by decide)).trans (V1_arg11 m ρ c)

/-! ## Before the second launch: the host operations from the first launch's exit -/

theorem V3_v20 (c : Dev nD) : V3 m ρ c main_v20
    = Net.hidden wf1 hcol hrow1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  show StableHlo.after hostOps1 (W2 m ρ c) (Proc.devRef .tc main_v20) = _
  after_results
  exact W2_v20 m ρ wf1 hcol hrow1 c

set_option maxHeartbeats 4000000 in
/-- The hidden features' aggregate. -/
theorem V3_v30 (c : Dev nD) : V3 m ρ c main_v30
    = Net.aggregate (Net.hidden wf1 hcol hrow1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) (m ((c : Thread nD τ).loc main_arg1)) (m ((c : Thread nD τ).loc main_arg2)) := by
  show StableHlo.after hostOps1 (W2 m ρ c) (Proc.devRef .tc main_v30) = _
  after_results
  rw [W2_v20 m ρ wf1 hcol hrow1 c, W2_arg1, W2_arg2]
  rfl

theorem V3_v8 (c : Dev nD) : V3 m ρ c main_v8 = Net.degInv (m ((c : Thread nD τ).loc main_arg2)) := by
  show StableHlo.after hostOps1 (W2 m ρ c) (Proc.devRef .tc main_v8) = _
  after_results
  exact W2_v8 m ρ c

theorem V3_arg9 (c : Dev nD) : V3 m ρ c main_arg9 = m ((c : Thread nD τ).loc main_arg9) := by
  show StableHlo.after hostOps1 (W2 m ρ c) (Proc.devRef .tc main_arg9) = _
  after_results
  exact W2_arg9 m ρ c

theorem V3_arg10 (c : Dev nD) : V3 m ρ c main_arg10 = m ((c : Thread nD τ).loc main_arg10) := by
  show StableHlo.after hostOps1 (W2 m ρ c) (Proc.devRef .tc main_arg10) = _
  after_results
  exact W2_arg10 m ρ c

/-- The output bias as a row. -/
theorem V3_v31 (c : Dev nD) : V3 m ρ c main_v31 = shapeCast S1x64 (m ((c : Thread nD τ).loc main_arg11)) shapeCasts_S64_S1x64 := by
  show StableHlo.after hostOps1 (W2 m ρ c) (Proc.devRef .tc main_v31) = _
  after_results
  rw [W2_arg11]
  rfl

/-! ## After the second launch -/

/-- THE RESULT: the fold's last stage at the result buffer is the network's output of the argument arrays. -/
theorem result_eq (c : Dev nD) : W4 m ρ c (Proc.devRef .tc main_v32)
    = Net.output wf1 hcol hrow1 wf3 hrow3 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg9)) (m ((c : Thread nD τ).loc main_arg10)) (m ((c : Thread nD τ).loc main_arg11)) := by
  refine (W4_arr m ρ c 6).trans ((Layer3.final wf3 hcol hrow3 (V3 m ρ) c).trans ?_)
  rw [V3_v20 m ρ wf1 hcol hrow1 c, V3_v30 m ρ wf1 hcol hrow1 c, V3_v8, V3_arg9, V3_arg10, V3_v31]
  rfl

end Cert.KernelIdeal.KernelValue

end
-- ==== Proof.RefValue.lean ====
/-
  The reference program's result as a function of its arguments.

  The reference's run ends with its result at the composed term of its host operations. Read from the outside in, that
  term is the output layer — two general products, the reciprocal-degree column and the bias row broadcast — of the hidden
  features, their aggregate over the edges, the column, the output weights and the output bias broadcast to a row; and the
  hidden features are the first layer of the node features, their aggregate, the same column, the first weights and the
  first bias broadcast to a row, followed by the maximum with zero, twice. This is the network's second spelling, term for
  term: the records of the two programs' gathers, scatters and products have the same fields.
-/
import proofs.«148659_j17506286698960_1_alg».proof.Proof.Network
import proofs.«148659_j17506286698960_1_alg».proof.Proof.Gen.ReferenceIdeal.Run

set_option maxRecDepth 16384

noncomputable section

namespace Cert.ReferenceIdeal.RefValue

open Cert.ReferenceIdeal Cert.ReferenceIdeal.Gen
open Idealize.ShloMosaic Idealize.ShloMosaic.TcCoe Idealize.SL.Sem

variable (m : (ℓ : Loc nD τ sig) → Buf (Elt Ideal) ℓ)

/-- The reference's result term is the network's output in its second spelling, of the reference's argument arrays. -/
theorem result_eq (c : Dev nD) :
    Cert.ReferenceIdeal.Value.res_main_v64 (F := Ideal) m c
      = Cert.KernelIdeal.Net.output' dot_S100000x128_S128x128_S100000x128_1_0_0_1_n_n_wf bcast_S100000x1_S100000x128_0_1
          bcast_S1x128_S100000x128_0_1 dot_S100000x128_S128x64_S100000x64_1_0_0_1_n_n_wf bcast_S1x64_S100000x64_0_1
          bcast_S128_S1x128_1 bcast_S64_S1x64_1
          (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg9)) (m ((c.tc : Thread nD τ).loc main_arg10))
          (m ((c.tc : Thread nD τ).loc main_arg11)) := by
  unfold Cert.ReferenceIdeal.Value.res_main_v64
  rfl

end Cert.ReferenceIdeal.RefValue

end
-- ==== Proof.lean ====
/-
  The kernel program and its reference are one function of their arguments at the exact values.

  Both compute a two-layer graph network with mean aggregation over a fixed edge list: reciprocal in-degrees from the
  destination list; hidden features `max(x·Ws₁ + (agg(x)·dinv)·Wn₁ + b₁, 0)`; output
  `h·Ws₃ + (agg(h)·dinv)·Wn₃ + b₃`, where `agg` gathers each edge's source row and sums it at the edge's destination.
  (The reference also evaluates a middle layer whose result nothing reads; its run's term does not contain it.)

  The kernel program computes the degrees and the aggregates on the host and each layer's dense part in a launch over ten
  blocks of 10000 rows. A layer's entry depends only on its own row of the row-blocked operands, so each launch leaves in
  its output array the layer of the whole arrays it was entered with (Layer1, Layer3), and walking the buffers back
  through the host stretches gives the program's result as the network of its arguments (KernelValue, over the run with
  its result kept, RunValue). The reference's run ends at its operations' composed term, which is the same network except
  that it takes the maximum with zero twice and broadcasts each bias vector to a row where the kernel program casts it
  (RefValue). A maximum with the same array twice is that maximum once, and the cast row is the broadcast row (Network):
  the two results are equal, entry by entry, on all extended reals. No sum is reordered and no factor moved, so the
  inputs' finiteness is not used.

  The three frames are the generated ones (the reference's is its run with the result dropped), and the idealization
  rewrote no operation, so there is nothing to preserve.
-/
import proofs.«148659_j17506286698960_1_alg».proof.Defs
import proofs.«148659_j17506286698960_1_alg».proof.Proof.Gen.Kernel
import proofs.«148659_j17506286698960_1_alg».proof.Proof.Gen.Kernel.Skeleton
import proofs.«148659_j17506286698960_1_alg».proof.Proof.Gen.Kernel.Launch
import proofs.«148659_j17506286698960_1_alg».proof.Proof.Gen.Kernel.Points
import proofs.«148659_j17506286698960_1_alg».proof.Proof.Gen.Kernel.Frame
import proofs.«148659_j17506286698960_1_alg».proof.Proof.Gen.KernelIdeal
import proofs.«148659_j17506286698960_1_alg».proof.Proof.Gen.KernelIdeal.Skeleton
import proofs.«148659_j17506286698960_1_alg».proof.Proof.Gen.KernelIdeal.Launch
import proofs.«148659_j17506286698960_1_alg».proof.Proof.Gen.KernelIdeal.Points
import proofs.«148659_j17506286698960_1_alg».proof.Proof.Gen.KernelIdeal.Frame
import proofs.«148659_j17506286698960_1_alg».proof.Proof.Gen.ReferenceIdeal
import proofs.«148659_j17506286698960_1_alg».proof.Proof.Gen.ReferenceIdeal.Run
import proofs.«148659_j17506286698960_1_alg».proof.Proof.Gen.Pre_finite_inputs
import proofs.«148659_j17506286698960_1_alg».proof.Proof.RunValue
import proofs.«148659_j17506286698960_1_alg».proof.Proof.KernelValue
import proofs.«148659_j17506286698960_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.ReferenceIdeal.Gen in
/-- From memories agreeing on the arguments both programs end with the network's output of those arguments. -/
theorem algebraic : Cert.algebraic_KernelIdeal_ReferenceIdeal := by
  intro m ρ m' ρ' _ hagree
  refine ⟨fun c => Cert.KernelIdeal.Net.output dot_S100000x128_S128x128_S100000x128_1_0_0_1_n_n_wf
      bcast_S100000x1_S100000x128_0_1 bcast_S1x128_S100000x128_0_1 dot_S100000x128_S128x64_S100000x64_1_0_0_1_n_n_wf
      bcast_S1x64_S100000x64_0_1
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KernelValue.result_eq m ρ _ _ _ _ _ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.ReferenceIdeal.RefValue.result_eq, Cert.KernelIdeal.Net.output'_eq, a0, a1, a2, a3, a4, a5, a9, a10, a11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
